-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S256 .f32) (main_arg6 : FVec F S64x256 .f32) (main_arg7 : FVec F S64 .f32) (main_arg8 : FVec F S64x64 .f32) (main_arg9 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x128 .f32) (main_arg3 : FVec F S128 .f32) (main_arg4 : FVec F S256x128 .f32) (main_arg5 : FVec F S256 .f32) (main_arg6 : FVec F S64x256 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x128 : Shape := ⟨2, ![1, 128]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S128x256 : Shape := ⟨2, ![128, 256]⟩
abbrev S100000x64 : Shape := ⟨2, ![100000, 64]⟩
abbrev S5000x64 : Shape := ⟨2, ![5000, 64]⟩
abbrev S256x64 : Shape := ⟨2, ![256, 64]⟩
abbrev S3300000x64 : Shape := ⟨2, ![3300000, 64]⟩
abbrev S1x64 : Shape := ⟨2, ![1, 64]⟩

abbrev nBuf : Space → Nat
  | .hbm => 103
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S3300000x1, .f32⟩
  | .hbm, ⟨51, _⟩ => ⟨S1x128, .f32⟩
  | .hbm, ⟨52, _⟩ => ⟨S1x256, .f32⟩
  | .hbm, ⟨53, _⟩ => ⟨S100000x256, .f32⟩
  | .hbm, ⟨54, _⟩ => ⟨S100000x64, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .f32⟩
  | .hbm, ⟨64, _⟩ => ⟨S3300000x64, .f32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x64, .f32⟩
  | .hbm, ⟨87, _⟩ => ⟨S3300000x64, .f32⟩
  | .hbm, ⟨88, _⟩ => ⟨S_, .f32⟩
  | .hbm, ⟨89, _⟩ => ⟨S100000x64, .f32⟩
  | .hbm, ⟨90, _⟩ => ⟨S3300000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S256x128, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S64x256, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S128_S1x128 : S128.ShapeCasts S1x128
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x128 : Shape := ⟨2, ![1, 128]⟩
abbrev S128x256 : Shape := ⟨2, ![128, 256]⟩
abbrev S100000x256 : Shape := ⟨2, ![100000, 256]⟩
abbrev S1x256 : Shape := ⟨2, ![1, 256]⟩
abbrev S256x64 : Shape := ⟨2, ![256, 64]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S3300000x1, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S128x256, .f32⟩
  | .hbm, ⟨60, _⟩ => ⟨S100000x256, .f32⟩
  | .hbm, ⟨61, _⟩ => ⟨S1x256, .f32⟩
  | .hbm, ⟨62, _⟩ => ⟨S100000x256, .f32⟩
  | .hbm, ⟨63, _⟩ => ⟨S100000x256, .f32⟩
  | .hbm, ⟨64, _⟩ => ⟨S256x64, .f32⟩
  | .hbm, ⟨65, _⟩ => ⟨S100000x64, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x64, .f32⟩
  | .hbm, ⟨75, _⟩ => ⟨S3300000x64, .f32⟩
  | .hbm, ⟨76, _⟩ => ⟨S3300000x64, .f32⟩
  | .hbm, ⟨77, _⟩ => ⟨S_, .f32⟩
  | .hbm, ⟨78, _⟩ => ⟨S100000x64, .f32⟩
  | .hbm, ⟨79, _⟩ => ⟨S3300000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S64x64, .f32⟩
  | .hbm, ⟨88, _⟩ => ⟨S100000x64, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x64, .f32⟩
  | .hbm, ⟨98, _⟩ => ⟨S3300000x64, .f32⟩
  | .hbm, ⟨99, _⟩ => ⟨S3300000x64, .f32⟩
  | .hbm, ⟨100, _⟩ => ⟨S_, .f32⟩
  | .hbm, ⟨101, _⟩ => ⟨S100000x64, .f32⟩
  | .hbm, ⟨102, _⟩ => ⟨S3300000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call2_cst : Ref sig .tc := ⟨.hbm, 84, rfl⟩
abbrev main_call2_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_9 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  transposes_S64x256_S256x64_1_0 : S64x256.Transposes [1, 0] S256x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result named.

  The program is nine segments: host operations, the perceptron's kernel, the first linear kernel, host operations
  (the first graph layer), the second linear kernel, host operations (the second graph layer and the logistic
  function). The generated frame folds the buffer contents through the segments (W0 … W9); read at the result's
  buffer instead of only at the arguments', the same launch says the result ends at the last boundary's contents.
-/
import proofs.«175818_j73186242724453_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run_result : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Hand

end
-- ==== Proof.Spec.lean ====
/-
  The graph network both programs compute, as one function of the argument arrays, written with the reference
  program's own host operations.

  Nodes 0 … 99999 carry rows of features; the edge list (two rows of 3200000 node numbers) is extended by one
  self-loop per node. With deg(v) the number of extended edges ending in v and dis(v) = deg(v)^(-1/2) where
  deg(v) > 0 (0 elsewhere), an edge from s to d has weight dis(s) · dis(d). One graph layer maps a table y of
  rows to  v ↦ (Σ over edges (s, d) with d = v of weight(s, d) · y[s]) + bias.  The network is
      sigmoid (layer₂ (relu (layer₁ (mlp x · W₆ᵀ)) · W₈ᵀ)),   mlp x = relu (x · W₁ᵀ + b₁) · W₂ᵀ + b₂,
  every product of a row table with a transposed weight matrix a plain contraction over the shared axis.
-/
import proofs.«175818_j73186242724453_1_alg».proof.ReferenceIdeal
import proofs.«175818_j73186242724453_1_alg».proof.Proof.Gen.ReferenceIdeal
import Idealize.ShloMosaic.PureOps.Ideal

noncomputable section

namespace Cert.Gcn

open Idealize.ShloMosaic Cert.ReferenceIdeal Cert.ReferenceIdeal.Gen

/-- The extended edge list's sources: row 0 of the edge list followed by the nodes themselves. -/
def srcIdx (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The extended edge list's targets: row 1 of the edge list followed by the nodes themselves. -/
def dstIdx (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node number read as python reads an index: a negative one counts from the end. -/
def wrap (s : IVec S3300000 32) : IVec S3300000 32 :=
  select (cmpi .slt s (broadcastInDim S3300000 ![] bcast_S_S3300000 (constantI S_ 32 0#32))) (addi s (broadcastInDim S3300000 ![] bcast_S_S3300000 (constantI S_ 32 100000#32))) s

/-- deg: how many extended edges end in each node. -/
def deg (e : IVec S2x3200000 32) : FVec Ideal S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstIdx e)) (broadcastInDim S3300000 ![] bcast_S_S3300000 (constant S_ .f32 0x3F800000#32))

/-- dis = deg^(-1/2) where deg > 0, and 0 elsewhere. -/
def dis (e : IVec S2x3200000 32) : FVec Ideal S100000 .f32 :=
  select (cmpf .ogt (deg e) (broadcastInDim S100000 ![] bcast_S_S100000 (constant S_ .f32 0x00000000#32))) (Host.rsqrt (deg e)) (broadcastInDim S100000 ![] bcast_S_S100000 (id (constant S_ .f32 0x00000000#32)))

/-- The edge weights dis(source) · dis(target), as a column. -/
def nrm (e : IVec S2x3200000 32) : FVec Ideal S3300000x1 .f32 :=
  broadcastInDim S3300000x1 ![0] bcast_S3300000_S3300000x1_0 (mulf (Host.gather gather_S100000_S3300000x1_S3300000_n_0_n_n_0_1_1 (dis e) (broadcastInDim S3300000x1 ![0] bcast_S3300000_S3300000x1_0 (wrap (srcIdx e)))) (Host.gather gather_S100000_S3300000x1_S3300000_n_0_n_n_0_1_1 (dis e) (broadcastInDim S3300000x1 ![0] bcast_S3300000_S3300000x1_0 (wrap (dstIdx e)))))

/-- One graph layer after its linear map: gather the rows at the sources, scale by the edge weights, add up at the
    targets, add the bias to every row. -/
def layer (s d : IVec S3300000 32) (n : FVec Ideal S3300000x1 .f32) (bias : FVec Ideal S64 .f32) (y : FVec Ideal S100000x64 .f32) :
    FVec Ideal S100000x64 .f32 :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 y (broadcastInDim S3300000x1 ![0] bcast_S3300000_S3300000x1_0 (wrap s))) (broadcastInDim S3300000x64 ![0, 1] bcast_S3300000x1_S3300000x64_0_1 n))) (broadcastInDim S100000x64 ![0, 1] bcast_S1x64_S100000x64_0_1 (broadcastInDim S1x64 ![1] bcast_S64_S1x64_1 bias))

/-- relu on a table of 64-entry rows. -/
def relu64 (y : FVec Ideal S100000x64 .f32) : FVec Ideal S100000x64 .f32 :=
  maximumf y (broadcastInDim S100000x64 ![] bcast_S_S100000x64 (constant S_ .f32 0x00000000#32))

/-- The logistic function 1 / (1 + exp (-y)), entry by entry. -/
def sigm (y : FVec Ideal S100000x64 .f32) : FVec Ideal S100000x64 .f32 :=
  Host.divf (broadcastInDim S100000x64 ![] bcast_S_S100000x64 (constant S_ .f32 0x3F800000#32)) (addf (broadcastInDim S100000x64 ![] bcast_S_S100000x64 (constant S_ .f32 0x3F800000#32)) (Host.exp (Host.negf y)))

/-- The second layer's linear map: rows of 64 times the transposed 64 × 64 weights. -/
def lin2 (y : FVec Ideal S100000x64 .f32) (w : FVec Ideal S64x64 .f32) : FVec Ideal S100000x64 .f32 :=
  Host.dotGeneral dot_S100000x64_S64x64_S100000x64_1_0_0_1_n_n none y (transpose S64x64 [1, 0] w transposes_S64x64_S64x64_1_0)

/-- The first layer's linear map: rows of 256 times the transposed 64 × 256 weights. -/
def lin1 (h : FVec Ideal S100000x256 .f32) (w : FVec Ideal S64x256 .f32) : FVec Ideal S100000x64 .f32 :=
  Host.dotGeneral dot_S100000x256_S256x64_S100000x64_1_0_0_1_n_n none h (transpose S256x64 [1, 0] w transposes_S64x256_S256x64_1_0)

/-- The two-layer perceptron relu (x · W₁ᵀ + b₁) · W₂ᵀ + b₂ on every row. -/
def mlp (x : FVec Ideal S100000x128 .f32) (w1 : FVec Ideal S128x128 .f32) (b1 : FVec Ideal S128 .f32) (w2 : FVec Ideal S256x128 .f32) (b2 : FVec Ideal S256 .f32) :
    FVec Ideal S100000x256 .f32 :=
  addf (Host.dotGeneral dot_S100000x128_S128x256_S100000x256_1_0_0_1_n_n none (maximumf (addf (Host.dotGeneral dot_S100000x128_S128x128_S100000x128_1_0_0_1_n_n none x (transpose S128x128 [1, 0] w1 transposes_S128x128_S128x128_1_0)) (broadcastInDim S100000x128 ![0, 1] bcast_S1x128_S100000x128_0_1 (broadcastInDim S1x128 ![1] bcast_S128_S1x128_1 b1))) (broadcastInDim S100000x128 ![] bcast_S_S100000x128 (constant S_ .f32 0x00000000#32))) (transpose S128x256 [1, 0] w2 transposes_S256x128_S128x256_1_0)) (broadcastInDim S100000x256 ![0, 1] bcast_S1x256_S100000x256_0_1 (broadcastInDim S1x256 ![1] bcast_S256_S1x256_1 b2))

/-- The whole network. -/
def gcn (x : FVec Ideal S100000x128 .f32) (e : IVec S2x3200000 32) (w1 : FVec Ideal S128x128 .f32) (b1 : FVec Ideal S128 .f32)
    (w2 : FVec Ideal S256x128 .f32) (b2 : FVec Ideal S256 .f32) (w6 : FVec Ideal S64x256 .f32) (b7 : FVec Ideal S64 .f32)
    (w8 : FVec Ideal S64x64 .f32) (b9 : FVec Ideal S64 .f32) : FVec Ideal S100000x64 .f32 :=
  sigm (layer (srcIdx e) (dstIdx e) (nrm e) b9 (lin2 (relu64 (layer (srcIdx e) (dstIdx e) (nrm e) b7 (lin1 (mlp x w1 b1 w2 b2) w6))) w8))

end Cert.Gcn

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.Region0.lean ====
/-
  The perceptron kernel's output array, whole.

  The kernel walks the 100000 × 128 input in 20 blocks of 5000 rows. At block t, for every row x of the block it
  forms the hidden row h[k] = max (Σ_j x[j] · W₁[k, j] + b₁[k], 0), k < 128, and stores Σ_k h[k] · W₂[q, k] + b₂[q],
  q < 256, back to the same rows of the 100000 × 256 output (the weights as transposed matrices in plain
  contractions, the biases as one-row matrices laid along the rows, every change of float format the identity on
  exact values). A stored entry depends on its own input row only, so the 20 blocks together are the perceptron of
  Spec.lean on all rows.
-/
import proofs.«175818_j73186242724453_1_alg».proof.Proof.Gen.KernelIdeal.Frame
import proofs.«175818_j73186242724453_1_alg».proof.Proof.Spec
import proofs.«175818_j73186242724453_1_alg».proof.Proof.LibPlainContract
import proofs.«175818_j73186242724453_1_alg».proof.Proof.LibLreluRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The index maps over the grid: the row blocks of the input and of the output move together, one per grid
    point; the weights and the biases are one block each. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The kernel body's value at an entry -/

/-- The body's hidden rows: relu of the block times the transposed first weights plus the first bias row. -/
def hiddenBlock (x0 : Vec Ideal S5000x128 .f32) (x1 : Vec Ideal S128x128 .f32) (x2 : Vec Ideal S1x128 .f32) : FVec Ideal S5000x128 .f32 :=
  maximumf (addf (matmul dot_S5000x128_S128x128_S5000x128_1_0_0_1_n_n none (truncf .bf16 x0 bitsLt_bf16_f32)
      (transpose S128x128 [1, 0] (truncf .bf16 x1 bitsLt_bf16_f32) transposes_S128x128_p1_0_S128x128) (constant S5000x128 .f32 0x00000000#32))
    (broadcastTo S5000x128 (shapeCast S1x128 x2 shapeCasts_S1x128_S1x128) broadcasts_S1x128_S5000x128))
    (broadcast S5000x128 (Scalar.ofBits (F := Ideal) .f32 0x00000000#32))

/-- The body's stored value: the hidden rows times the transposed second weights plus the second bias row. -/
theorem payload0_eq (x0 : Vec Ideal S5000x128 .f32) (x1 : Vec Ideal S128x128 .f32) (x2 : Vec Ideal S1x128 .f32) (x3 : Vec Ideal S256x128 .f32) (x4 : Vec Ideal S1x256 .f32) :
    k0_pay1 (F := Ideal) x0 x1 x2 x3 x4
      = addf (matmul dot_S5000x128_S128x256_S5000x256_1_0_0_1_n_n none (truncf .bf16 (hiddenBlock x0 x1 x2) bitsLt_bf16_f32)
          (transpose S128x256 [1, 0] (truncf .bf16 x3 bitsLt_bf16_f32) transposes_S256x128_p1_0_S128x256) (constant S5000x256 .f32 0x00000000#32))
        (broadcastTo S5000x256 (shapeCast S1x256 x4 shapeCasts_S1x256_S1x256) broadcasts_S1x256_S5000x256) := rfl

/-- A hidden entry (a, k): relu of row a against column k of the transposed first weights plus the bias's entry k. -/
theorem hiddenBlock_apply (x0 : Vec Ideal S5000x128 .f32) (x1 : Vec Ideal S128x128 .f32) (x2 : Vec Ideal S1x128 .f32) (a : Fin 5000) (k : Fin 128) :
    hiddenBlock x0 x1 x2 (ix2 a k)
      = FloatOps.maximumf (FloatOps.addf (∑ j : Fin 128, x0 (ix2 a j) * (transpose S128x128 [1, 0] x1 transposes_S128x128_p1_0_S128x128) (ix2 j k)) (x2 (ix2 (0 : Fin 1) k)))
          (Scalar.ofBits (F := Ideal) .f32 0x00000000#32) := by
  unfold hiddenBlock
  refine congrArg₂ (fun u v => FloatOps.maximumf (FloatOps.addf u v) (Scalar.ofBits (F := Ideal) .f32 0x00000000#32)) ?_ ?_
  · exact Cert.LibPlainContract.matmul_plain_apply 5000 128 128 none _ _ a k
  · exact Cert.LibLreluRows.rowDown_apply shapeCasts_S1x128_S1x128 broadcasts_S1x128_S5000x128 x2 a k

/-- A stored entry (a, q). -/
theorem payload0_apply (x0 : Vec Ideal S5000x128 .f32) (x1 : Vec Ideal S128x128 .f32) (x2 : Vec Ideal S1x128 .f32) (x3 : Vec Ideal S256x128 .f32) (x4 : Vec Ideal S1x256 .f32)
    (a : Fin 5000) (q : Fin 256) :
    k0_pay1 (F := Ideal) x0 x1 x2 x3 x4 (ix2 a q)
      = FloatOps.addf (∑ k : Fin 128, hiddenBlock x0 x1 x2 (ix2 a k) * (transpose S128x256 [1, 0] x3 transposes_S256x128_p1_0_S128x256) (ix2 k q))
          (x4 (ix2 (0 : Fin 1) q)) := by
  rw [payload0_eq]
  refine congrArg₂ (fun u v => FloatOps.addf u v) ?_ ?_
  · exact Cert.LibPlainContract.matmul_plain_apply 5000 128 256 none _ _ a q
  · exact Cert.LibLreluRows.rowDown_apply shapeCasts_S1x256_S1x256 broadcasts_S1x256_S5000x256 x4 a q

/-! ## The specification at an entry -/

open Cert.ReferenceIdeal in
/-- The specification's hidden rows. -/
def hiddenRows (X : FVec Ideal Cert.ReferenceIdeal.S100000x128 .f32) (W1 : FVec Ideal Cert.ReferenceIdeal.S128x128 .f32) (b1 : FVec Ideal Cert.ReferenceIdeal.S128 .f32) :
    FVec Ideal Cert.ReferenceIdeal.S100000x128 .f32 :=
  maximumf (addf (Host.dotGeneral dot_S100000x128_S128x128_S100000x128_1_0_0_1_n_n none X (transpose S128x128 [1, 0] W1 Cert.ReferenceIdeal.Gen.transposes_S128x128_S128x128_1_0)) (broadcastInDim S100000x128 ![0, 1] Cert.ReferenceIdeal.Gen.bcast_S1x128_S100000x128_0_1 (broadcastInDim S1x128 ![1] Cert.ReferenceIdeal.Gen.bcast_S128_S1x128_1 b1))) (broadcastInDim S100000x128 ![] Cert.ReferenceIdeal.Gen.bcast_S_S100000x128 (constant S_ .f32 0x00000000#32))

open Cert.ReferenceIdeal in
theorem mlp_eq (X : FVec Ideal S100000x128 .f32) (W1 : FVec Ideal S128x128 .f32) (b1 : FVec Ideal S128 .f32) (W2 : FVec Ideal S256x128 .f32) (b2 : FVec Ideal S256 .f32) :
    Cert.Gcn.mlp X W1 b1 W2 b2
      = addf (Host.dotGeneral dot_S100000x128_S128x256_S100000x256_1_0_0_1_n_n none (hiddenRows X W1 b1) (transpose S128x256 [1, 0] W2 Cert.ReferenceIdeal.Gen.transposes_S256x128_S128x256_1_0))
          (broadcastInDim S100000x256 ![0, 1] Cert.ReferenceIdeal.Gen.bcast_S1x256_S100000x256_0_1 (broadcastInDim S1x256 ![1] Cert.ReferenceIdeal.Gen.bcast_S256_S1x256_1 b2)) := rfl

open Cert.ReferenceIdeal in
theorem hiddenRows_apply (X : FVec Ideal S100000x128 .f32) (W1 : FVec Ideal S128x128 .f32) (b1 : FVec Ideal S128 .f32) (p : Fin 100000) (k : Fin 128) :
    hiddenRows X W1 b1 (ix2 p k)
      = FloatOps.maximumf (FloatOps.addf (∑ j : Fin 128, X (ix2 p j) * (transpose S128x128 [1, 0] W1 Cert.ReferenceIdeal.Gen.transposes_S128x128_S128x128_1_0) (ix2 j k)) (b1 (ix1 k)))
          (Scalar.ofBits (F := Ideal) .f32 0x00000000#32) := by
  unfold hiddenRows
  refine congrArg₂ (fun u v => FloatOps.maximumf (FloatOps.addf u v) (Scalar.ofBits (F := Ideal) .f32 0x00000000#32)) ?_ ?_
  · exact Cert.LibPlainContract.dotGeneral_plain_apply 100000 128 128 none .single _ _ p k
  · exact Cert.LibLreluRows.biasRows_apply _ _ b1 p k

open Cert.ReferenceIdeal in
theorem mlp_apply (X : FVec Ideal S100000x128 .f32) (W1 : FVec Ideal S128x128 .f32) (b1 : FVec Ideal S128 .f32) (W2 : FVec Ideal S256x128 .f32) (b2 : FVec Ideal S256 .f32)
    (p : Fin 100000) (q : Fin 256) :
    Cert.Gcn.mlp X W1 b1 W2 b2 (ix2 p q)
      = FloatOps.addf (∑ k : Fin 128, hiddenRows X W1 b1 (ix2 p k) * (transpose S128x256 [1, 0] W2 Cert.ReferenceIdeal.Gen.transposes_S256x128_S128x256_1_0) (ix2 k q))
          (b2 (ix1 q)) := by
  rw [mlp_eq]
  refine congrArg₂ (fun u v => FloatOps.addf u v) ?_ ?_
  · exact Cert.LibPlainContract.dotGeneral_plain_apply 100000 128 256 none .single _ _ p q
  · exact Cert.LibLreluRows.biasRows_apply _ _ b2 p q

/-! ## Blocks to the array -/

/-- One block's stored value against the specification: when the loaded input block is rows r·5000 … of X, the
    loaded weights are W₁ and W₂, the loaded bias rows hold b₁ and b₂, and the array index i is the block index y
    moved down r·5000 rows. -/
theorem block0_value (x0 : Vec Ideal S5000x128 .f32) (x1 : Vec Ideal S128x128 .f32) (x2 : Vec Ideal S1x128 .f32) (x3 : Vec Ideal S256x128 .f32) (x4 : Vec Ideal S1x256 .f32)
    (X : FVec Ideal S100000x128 .f32) (W1 : FVec Ideal S128x128 .f32) (b1 : FVec Ideal S128 .f32) (W2 : FVec Ideal S256x128 .f32) (b2 : FVec Ideal S256 .f32)
    (y : S5000x256.Idx) (i : S100000x256.Idx) (r : Nat)
    (hx0 : ∀ (a : Fin 5000) (k : Fin 128) (p : Fin 100000), p.val = r * 5000 + a.val → x0 (ix2 a k) = X (ix2 p k))
    (hx1 : x1 = W1) (hx2 : ∀ k : Fin 128, x2 (ix2 (0 : Fin 1) k) = b1 (ix1 k)) (hx3 : x3 = W2) (hx4 : ∀ q : Fin 256, x4 (ix2 (0 : Fin 1) q) = b2 (ix1 q))
    (hi0 : (i 0).val = r * 5000 + (y 0).val) (hi1 : (i 1).val = (y 1).val) :
    k0_pay1 (F := Ideal) x0 x1 x2 x3 x4 y = Cert.Gcn.mlp X W1 b1 W2 b2 i := by
  obtain ⟨a, b, rfl⟩ : ∃ (a : Fin 5000) (b : Fin 256), y = ix2 a b := ⟨y 0, y 1, eq_ix2 y⟩
  obtain ⟨p, q, rfl⟩ : ∃ (p : Fin 100000) (q : Fin 256), i = ix2 p q := ⟨i 0, i 1, eq_ix2 i⟩
  obtain rfl : q = b := Fin.ext hi1
  subst hx1 hx3
  rw [payload0_apply, mlp_apply, hx4 q]
  refine congrArg (fun u => FloatOps.addf u (b2 (ix1 q))) ?_
  refine Finset.sum_congr rfl fun k _ => ?_
  rw [hiddenBlock_apply, hiddenRows_apply, hx2 k]
  refine congrArg₂ (fun u v => FloatOps.maximumf (FloatOps.addf u (b1 (ix1 k))) (Scalar.ofBits (F := Ideal) .f32 0x00000000#32) * v) ?_ rfl
  refine Finset.sum_congr rfl fun j _ => ?_
  rw [hx0 a j p hi0]

/-- What grid point t writes back is block t of the perceptron applied to the arrays the region finds, the two
    bias rows holding the vectors b₁ and b₂. -/
theorem flushed0_value (c : Dev nD) (b1 : FVec Ideal S128 .f32) (b2 : FVec Ideal S256 .f32)
    (h1 : ∀ k : Fin 128, (V c main_v31 : S1x128.Idx → EReal) (ix2 (0 : Fin 1) k) = b1 (ix1 k))
    (h2 : ∀ q : Fin 256, (V c main_v32 : S1x256.Idx → EReal) (ix2 (0 : Fin 1) q) = b2 (ix1 q)) (t : Fin cfg0.N) :
    (dat0 (F := Ideal) V c).flushed 5 t
      = ((cfg0.win 5).blk t).view.read (Elt Ideal) (Cert.Gcn.mlp (V c main_arg0) (V c main_arg2) b1 (V c main_arg4) b2) := by
  show (cfg0.win 5).cut (grid0.coords t) ((dat0 V c).after 5 t) = _
  rw [after0_5]
  unfold out0_5
  rw [View.canon_unit_zero zero_off0]
  simp only [View.ld_unit_zero (S := S5000x128) zero_off0, View.ld_unit_zero (S := S128x128) zero_off0, View.ld_unit_zero (S := S1x128) zero_off0,
    View.ld_unit_zero (S := S256x128) zero_off0, View.ld_unit_zero (S := S1x256) zero_off0]
  obtain ⟨e0, e1, e2, e3, e4, e5, e6, e7, e8, e9, e10, e11⟩ := index_facts0 t
  funext y
  show k0_pay1 (F := Ideal) (iblk0 V c 0 t) (iblk0 V c 1 t) (iblk0 V c 2 t) (iblk0 V c 3 t) (iblk0 V c 4 t) y
    = Cert.Gcn.mlp (V c main_arg0) (V c main_arg2) b1 (V c main_arg4) b2 (((cfg0.win 5).blk t).view.emb y)
  refine block0_value (iblk0 V c 0 t) (iblk0 V c 1 t) (iblk0 V c 2 t) (iblk0 V c 3 t) (iblk0 V c 4 t)
    (V c main_arg0) (V c main_arg2) b1 (V c main_arg4) b2 y (((cfg0.win 5).blk t).view.emb y) t.val ?_ ?_ ?_ ?_ ?_ ?_ ?_
  · intro a k p hp
    show V c main_arg0 (((cfg0.win 0).blk t).view.emb (ix2 a k)) = V c main_arg0 (ix2 p k)
    refine congrArg (V c main_arg0) (funext fun d => Fin.ext ?_)
    match d with
    | ⟨0, _⟩ => show win0_0.index t (0 : Fin 2) * 5000 + 1 * a.val = p.val; omega
    | ⟨1, _⟩ => show win0_0.index t (1 : Fin 2) * 128 + 1 * k.val = k.val; omega
  · funext z
    show V c main_arg2 (((cfg0.win 1).blk t).view.emb z) = V c main_arg2 z
    refine congrArg (V c main_arg2) (funext fun d => Fin.ext ?_)
    match d with
    | ⟨0, _⟩ => show win0_1.index t (0 : Fin 2) * 128 + 1 * (z 0).val = (z 0).val; omega
    | ⟨1, _⟩ => show win0_1.index t (1 : Fin 2) * 128 + 1 * (z 1).val = (z 1).val; omega
  · intro k
    refine Eq.trans ?_ (h1 k)
    show V c main_v31 (((cfg0.win 2).blk t).view.emb (ix2 (0 : Fin 1) k)) = V c main_v31 (ix2 (0 : Fin 1) k)
    refine congrArg (V c main_v31) (funext fun d => Fin.ext ?_)
    match d with
    | ⟨0, _⟩ => show win0_2.index t (0 : Fin 2) * 1 + 1 * 0 = 0; omega
    | ⟨1, _⟩ => show win0_2.index t (1 : Fin 2) * 128 + 1 * k.val = k.val; omega
  · funext z
    show V c main_arg4 (((cfg0.win 3).blk t).view.emb z) = V c main_arg4 z
    refine congrArg (V c main_arg4) (funext fun d => Fin.ext ?_)
    match d with
    | ⟨0, _⟩ => show win0_3.index t (0 : Fin 2) * 256 + 1 * (z 0).val = (z 0).val; omega
    | ⟨1, _⟩ => show win0_3.index t (1 : Fin 2) * 128 + 1 * (z 1).val = (z 1).val; omega
  · intro q
    refine Eq.trans ?_ (h2 q)
    show V c main_v32 (((cfg0.win 4).blk t).view.emb (ix2 (0 : Fin 1) q)) = V c main_v32 (ix2 (0 : Fin 1) q)
    refine congrArg (V c main_v32) (funext fun d => Fin.ext ?_)
    match d with
    | ⟨0, _⟩ => show win0_4.index t (0 : Fin 2) * 1 + 1 * 0 = 0; omega
    | ⟨1, _⟩ => show win0_4.index t (1 : Fin 2) * 256 + 1 * q.val = q.val; omega
  · show win0_5.index t (0 : Fin 2) * 5000 + 1 * (y 0).val = t.val * 5000 + (y 0).val; omega
  · show win0_5.index t (1 : Fin 2) * 256 + 1 * (y 1).val = (y 1).val; omega

/-- An index of the output array is in point t's block iff each coordinate is in the block's range on its axis. -/
theorem mem_block0 (t : Fin cfg0.N) (i : S100000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v33).slice (win0_5.rect t)).set ↔ _
  rw [View.set_slice_whole, Rect.mem_set_unit]
  exact Iff.rfl

/-- Row p of the output lies in the block of grid point p / 5000. -/
theorem cover0 (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 20 := N_0
  have ht : (i 0).val / 5000 < cfg0.N := by rw [hN]; omega
  obtain ⟨e0, e1, e2, e3, e4, e5, e6, e7, e8, e9, e10, e11⟩ := index_facts0 ⟨(i 0).val / 5000, ht⟩
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win0_5.index ⟨(i 0).val / 5000, ht⟩ (1 : Fin 2) * 256 ≤ (i 1).val ∧ (i 1).val < win0_5.index ⟨(i 0).val / 5000, ht⟩ (1 : Fin 2) * 256 + 256
    rw [e11]; omega

/-- The output array after the region: the perceptron of the arrays the region finds. -/
theorem region0_value (c : Dev nD) (b1 : FVec Ideal S128 .f32) (b2 : FVec Ideal S256 .f32)
    (h1 : ∀ k : Fin 128, (V c main_v31 : S1x128.Idx → EReal) (ix2 (0 : Fin 1) k) = b1 (ix1 k))
    (h2 : ∀ q : Fin 256, (V c main_v32 : S1x256.Idx → EReal) (ix2 (0 : Fin 1) q) = b2 (ix1 q)) :
    (dat0 (F := Ideal) V c).arrAt 5 cfg0.N = Cert.Gcn.mlp (V c main_arg0) (V c main_arg2) b1 (V c main_arg4) b2 :=
  (dat0 (F := Ideal) V c).arrAt_eq_of_cover 5 (Cert.Gcn.mlp (V c main_arg0) (V c main_arg2) b1 (V c main_arg4) b2)
    (fun t _ => flushed0_value V c b1 b2 h1 h2 t) cover0

end Cert.KernelIdeal.Hand

end
-- ==== Proof.Region1.lean ====
/-
  The first linear kernel's output array, whole.

  The kernel walks the 100000 × 256 input in 20 blocks of 5000 rows; at block t it multiplies rows
  5000·t … 5000·t + 4999 by the transposed weight matrix (a plain contraction over the 256 shared positions, the
  change of float format on the way in being the identity on exact values) and writes the 5000 × 64 block back to
  the same rows of the output. Entry (p, q) of a block product depends on row p of the block only, so the 20 blocks
  together are the one product of all rows with the transposed weights: Spec.lean's lin1.
-/
import proofs.«175818_j73186242724453_1_alg».proof.Proof.Gen.KernelIdeal.Frame
import proofs.«175818_j73186242724453_1_alg».proof.Proof.Spec
import proofs.«175818_j73186242724453_1_alg».proof.Proof.LibPlainContract
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The index maps over the grid: the row blocks of the input and of the output move together, one per grid
    point; the weight matrix is one block. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value at entry (a, b): row a of the loaded block against column b of the transposed weights. -/
theorem payload1_apply (x0 : Vec Ideal S5000x256 .f32) (x1 : Vec Ideal S64x256 .f32) (a : Fin 5000) (b : Fin 64) :
    k1_pay1 (F := Ideal) x0 x1 (ix2 a b)
      = ∑ k : Fin 256, x0 (ix2 a k) * (transpose S256x64 [1, 0] x1 transposes_S64x256_p1_0_S256x64) (ix2 k b) := by
  unfold k1_pay1
  refine (Cert.LibPlainContract.matmul_plain_apply 5000 256 64 none _ _ a b).trans ?_
  refine Finset.sum_congr rfl fun k _ => ?_
  refine congrArg (· * _) ?_
  exact congrFun (shapeCast_self x0 _) (ix2 a k)

/-- The specification at entry (p, q): row p of the input against column q of the transposed weights. -/
theorem lin1_apply (X : FVec Ideal Cert.ReferenceIdeal.S100000x256 .f32) (W : FVec Ideal Cert.ReferenceIdeal.S64x256 .f32) (p : Fin 100000) (q : Fin 64) :
    Cert.Gcn.lin1 X W (ix2 p q)
      = ∑ k : Fin 256, X (ix2 p k) * (transpose Cert.ReferenceIdeal.S256x64 [1, 0] W Cert.ReferenceIdeal.Gen.transposes_S64x256_S256x64_1_0) (ix2 k q) := by
  unfold Cert.Gcn.lin1
  exact Cert.LibPlainContract.dotGeneral_plain_apply 100000 256 64 none .single _ _ p q

/-- One block's stored value against the specification: when the loaded input block is rows r·5000 … of X, the
    loaded weights are W, and the array index i is the block index y moved down r·5000 rows. -/
theorem block1_value (x0 : Vec Ideal S5000x256 .f32) (x1 : Vec Ideal S64x256 .f32)
    (X : FVec Ideal S100000x256 .f32) (W : FVec Ideal S64x256 .f32) (y : S5000x64.Idx) (i : S100000x64.Idx) (r : Nat)
    (hx0 : ∀ (a : Fin 5000) (k : Fin 256) (p : Fin 100000), p.val = r * 5000 + a.val → x0 (ix2 a k) = X (ix2 p k))
    (hx1 : x1 = W) (hi0 : (i 0).val = r * 5000 + (y 0).val) (hi1 : (i 1).val = (y 1).val) :
    k1_pay1 (F := Ideal) x0 x1 y = Cert.Gcn.lin1 X W i := by
  obtain ⟨a, b, rfl⟩ : ∃ (a : Fin 5000) (b : Fin 64), y = ix2 a b := ⟨y 0, y 1, eq_ix2 y⟩
  obtain ⟨p, q, rfl⟩ : ∃ (p : Fin 100000) (q : Fin 64), i = ix2 p q := ⟨i 0, i 1, eq_ix2 i⟩
  obtain rfl : q = b := Fin.ext hi1
  subst hx1
  rw [payload1_apply, lin1_apply]
  refine Finset.sum_congr rfl fun k _ => ?_
  rw [hx0 a k p hi0]

/-- What grid point t writes back is block t of the specification applied to the arrays the region finds. -/
theorem flushed1_value (c : Dev nD) (t : Fin cfg1.N) :
    (dat1 (F := Ideal) V c).flushed 2 t
      = ((cfg1.win 2).blk t).view.read (Elt Ideal) (Cert.Gcn.lin1 (V c main_v33) (V c main_arg6)) := by
  show (cfg1.win 2).cut (grid1.coords t) ((dat1 V c).after 2 t) = _
  rw [after1_2]
  unfold out1_2
  rw [View.canon_unit_zero zero_off1]
  simp only [View.ld_unit_zero (S := S5000x256) zero_off1, View.ld_unit_zero (S := S64x256) zero_off1]
  obtain ⟨e0, e1, e2, e3, e4, e5⟩ := index_facts1 t
  funext y
  show k1_pay1 (F := Ideal) (iblk1 V c 0 t) (iblk1 V c 1 t) y
    = Cert.Gcn.lin1 (V c main_v33) (V c main_arg6) (((cfg1.win 2).blk t).view.emb y)
  refine block1_value (iblk1 V c 0 t) (iblk1 V c 1 t) (V c main_v33) (V c main_arg6) y (((cfg1.win 2).blk t).view.emb y) t.val ?_ ?_ ?_ ?_
  · intro a k p hp
    show V c main_v33 (((cfg1.win 0).blk t).view.emb (ix2 a k)) = V c main_v33 (ix2 p k)
    refine congrArg (V c main_v33) (funext fun d => Fin.ext ?_)
    match d with
    | ⟨0, _⟩ => show win1_0.index t (0 : Fin 2) * 5000 + 1 * a.val = p.val; omega
    | ⟨1, _⟩ => show win1_0.index t (1 : Fin 2) * 256 + 1 * k.val = k.val; omega
  · funext z
    show V c main_arg6 (((cfg1.win 1).blk t).view.emb z) = V c main_arg6 z
    refine congrArg (V c main_arg6) (funext fun d => Fin.ext ?_)
    match d with
    | ⟨0, _⟩ => show win1_1.index t (0 : Fin 2) * 64 + 1 * (z 0).val = (z 0).val; omega
    | ⟨1, _⟩ => show win1_1.index t (1 : Fin 2) * 256 + 1 * (z 1).val = (z 1).val; omega
  · show win1_2.index t (0 : Fin 2) * 5000 + 1 * (y 0).val = t.val * 5000 + (y 0).val; omega
  · show win1_2.index t (1 : Fin 2) * 64 + 1 * (y 1).val = (y 1).val; omega

/-- An index of the output array is in point t's block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v34).slice (win1_2.rect t)).set ↔ _
  rw [View.set_slice_whole, Rect.mem_set_unit]
  exact Iff.rfl

/-- Row p of the output lies in the block of grid point p / 5000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨e0, e1, e2, e3, e4, e5⟩ := index_facts1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The output array after the region: the specification's linear map of the arrays the region finds. -/
theorem region1_value (c : Dev nD) :
    (dat1 (F := Ideal) V c).arrAt 2 cfg1.N = Cert.Gcn.lin1 (V c main_v33) (V c main_arg6) :=
  (dat1 (F := Ideal) V c).arrAt_eq_of_cover 2 (Cert.Gcn.lin1 (V c main_v33) (V c main_arg6)) (fun t _ => flushed1_value V c t) cover1

end Cert.KernelIdeal.Hand

end
-- ==== Proof.Region2.lean ====
/-
  The second linear kernel's output array, whole.

  The kernel walks the 100000 × 64 input in 20 blocks of 5000 rows; at block t it multiplies rows
  5000·t … 5000·t + 4999 by the transposed weight matrix (a plain contraction over the 64 shared positions, the
  change of float format on the way in being the identity on exact values) and writes the 5000 × 64 block back to
  the same rows of the output. Entry (p, q) of a block product depends on row p of the block only, so the 20 blocks
  together are the one product of all rows with the transposed weights: Spec.lean's lin2.
-/
import proofs.«175818_j73186242724453_1_alg».proof.Proof.Gen.KernelIdeal.Frame
import proofs.«175818_j73186242724453_1_alg».proof.Proof.Spec
import proofs.«175818_j73186242724453_1_alg».proof.Proof.LibPlainContract
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The index maps over the grid: the row blocks of the input and of the output move together, one per grid
    point; the weight matrix is one block. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value at entry (a, b): row a of the loaded block against column b of the transposed weights. -/
theorem payload2_apply (x0 : Vec Ideal S5000x64 .f32) (x1 : Vec Ideal S64x64 .f32) (a : Fin 5000) (b : Fin 64) :
    k2_pay1 (F := Ideal) x0 x1 (ix2 a b)
      = ∑ k : Fin 64, x0 (ix2 a k) * (transpose S64x64 [1, 0] x1 transposes_S64x64_p1_0_S64x64) (ix2 k b) := by
  unfold k2_pay1
  refine (Cert.LibPlainContract.matmul_plain_apply 5000 64 64 none _ _ a b).trans ?_
  refine Finset.sum_congr rfl fun k _ => ?_
  refine congrArg (· * _) ?_
  exact congrFun (shapeCast_self x0 _) (ix2 a k)

/-- The specification at entry (p, q): row p of the input against column q of the transposed weights. -/
theorem lin2_apply (X : FVec Ideal Cert.ReferenceIdeal.S100000x64 .f32) (W : FVec Ideal Cert.ReferenceIdeal.S64x64 .f32) (p : Fin 100000) (q : Fin 64) :
    Cert.Gcn.lin2 X W (ix2 p q)
      = ∑ k : Fin 64, X (ix2 p k) * (transpose Cert.ReferenceIdeal.S64x64 [1, 0] W Cert.ReferenceIdeal.Gen.transposes_S64x64_S64x64_1_0) (ix2 k q) := by
  unfold Cert.Gcn.lin2
  exact Cert.LibPlainContract.dotGeneral_plain_apply 100000 64 64 none .single _ _ p q

/-- One block's stored value against the specification: when the loaded input block is rows r·5000 … of X, the
    loaded weights are W, and the array index i is the block index y moved down r·5000 rows. -/
theorem block2_value (x0 : Vec Ideal S5000x64 .f32) (x1 : Vec Ideal S64x64 .f32)
    (X : FVec Ideal S100000x64 .f32) (W : FVec Ideal S64x64 .f32) (y : S5000x64.Idx) (i : S100000x64.Idx) (r : Nat)
    (hx0 : ∀ (a : Fin 5000) (k : Fin 64) (p : Fin 100000), p.val = r * 5000 + a.val → x0 (ix2 a k) = X (ix2 p k))
    (hx1 : x1 = W) (hi0 : (i 0).val = r * 5000 + (y 0).val) (hi1 : (i 1).val = (y 1).val) :
    k2_pay1 (F := Ideal) x0 x1 y = Cert.Gcn.lin2 X W i := by
  obtain ⟨a, b, rfl⟩ : ∃ (a : Fin 5000) (b : Fin 64), y = ix2 a b := ⟨y 0, y 1, eq_ix2 y⟩
  obtain ⟨p, q, rfl⟩ : ∃ (p : Fin 100000) (q : Fin 64), i = ix2 p q := ⟨i 0, i 1, eq_ix2 i⟩
  obtain rfl : q = b := Fin.ext hi1
  subst hx1
  rw [payload2_apply, lin2_apply]
  refine Finset.sum_congr rfl fun k _ => ?_
  rw [hx0 a k p hi0]

/-- What grid point t writes back is block t of the specification applied to the arrays the region finds. -/
theorem flushed2_value (c : Dev nD) (t : Fin cfg2.N) :
    (dat2 (F := Ideal) V c).flushed 2 t
      = ((cfg2.win 2).blk t).view.read (Elt Ideal) (Cert.Gcn.lin2 (V c main_v50) (V c main_arg8)) := by
  show (cfg2.win 2).cut (grid2.coords t) ((dat2 V c).after 2 t) = _
  rw [after2_2]
  unfold out2_2
  rw [View.canon_unit_zero zero_off2]
  simp only [View.ld_unit_zero (S := S5000x64) zero_off2, View.ld_unit_zero (S := S64x64) zero_off2]
  obtain ⟨e0, e1, e2, e3, e4, e5⟩ := index_facts2 t
  funext y
  show k2_pay1 (F := Ideal) (iblk2 V c 0 t) (iblk2 V c 1 t) y
    = Cert.Gcn.lin2 (V c main_v50) (V c main_arg8) (((cfg2.win 2).blk t).view.emb y)
  refine block2_value (iblk2 V c 0 t) (iblk2 V c 1 t) (V c main_v50) (V c main_arg8) y (((cfg2.win 2).blk t).view.emb y) t.val ?_ ?_ ?_ ?_
  · intro a k p hp
    show V c main_v50 (((cfg2.win 0).blk t).view.emb (ix2 a k)) = V c main_v50 (ix2 p k)
    refine congrArg (V c main_v50) (funext fun d => Fin.ext ?_)
    match d with
    | ⟨0, _⟩ => show win2_0.index t (0 : Fin 2) * 5000 + 1 * a.val = p.val; omega
    | ⟨1, _⟩ => show win2_0.index t (1 : Fin 2) * 64 + 1 * k.val = k.val; omega
  · funext z
    show V c main_arg8 (((cfg2.win 1).blk t).view.emb z) = V c main_arg8 z
    refine congrArg (V c main_arg8) (funext fun d => Fin.ext ?_)
    match d with
    | ⟨0, _⟩ => show win2_1.index t (0 : Fin 2) * 64 + 1 * (z 0).val = (z 0).val; omega
    | ⟨1, _⟩ => show win2_1.index t (1 : Fin 2) * 64 + 1 * (z 1).val = (z 1).val; omega
  · show win2_2.index t (0 : Fin 2) * 5000 + 1 * (y 0).val = t.val * 5000 + (y 0).val; omega
  · show win2_2.index t (1 : Fin 2) * 64 + 1 * (y 1).val = (y 1).val; omega

/-- An index of the output array is in point t's block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v51).slice (win2_2.rect t)).set ↔ _
  rw [View.set_slice_whole, Rect.mem_set_unit]
  exact Iff.rfl

/-- Row p of the output lies in the block of grid point p / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨e0, e1, e2, e3, e4, e5⟩ := index_facts2 ⟨(i 0).val / 5000, ht⟩
  refine ⟨⟨(i 0).val / 5000, ht⟩, flush2_2 _, ?_⟩
  rw [mem_block2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- The output array after the region: the specification's linear map of the arrays the region finds. -/
theorem region2_value (c : Dev nD) :
    (dat2 (F := Ideal) V c).arrAt 2 cfg2.N = Cert.Gcn.lin2 (V c main_v50) (V c main_arg8) :=
  (dat2 (F := Ideal) V c).arrAt_eq_of_cover 2 (Cert.Gcn.lin2 (V c main_v50) (V c main_arg8)) (fun t _ => flushed2_value V c t) cover2

end Cert.KernelIdeal.Hand

end
-- ==== Proof.HostRead.lean ====
/-
  Reading a stretch of host operations at one buffer.

  The contents of a buffer after a list of host operations is the writing operation's function of its operands'
  contents before it, and an unwritten buffer keeps its contents; one simplifier pass computes this for a literal
  list. The extended edge lists are written by an operation that joins a 3200000-vector and a 100000-vector; naming
  that join as a function of its two parts lets the pass continue into the parts.
-/
import proofs.«175818_j73186242724453_1_alg».proof.KernelIdeal
import proofs.«175818_j73186242724453_1_alg».proof.Proof.Gen.KernelIdeal
import Idealize.ShloMosaic.Lib.StableHlo.Run
import Idealize.ShloMosaic.PureOps.Ideal

noncomputable section

namespace Cert.KernelIdeal.Hand

open Cert.KernelIdeal Cert.KernelIdeal.Gen Idealize.ShloMosaic

/-- A 3200000-vector followed by a 100000-vector. -/
def joinPair {α : Type} (a : S3200000.Idx → α) (b : S100000.Idx → α) : S3300000.Idx → α :=
  concatenate S3300000 0 [⟨S3200000, a⟩, ⟨S100000, b⟩] concatenates_S3200000_S100000_S3300000_d0

theorem joinPair_eq {α : Type} (a : S3200000.Idx → α) (b : S100000.Idx → α) :
    concatenate S3300000 0 [⟨S3200000, a⟩, ⟨S100000, b⟩] concatenates_S3200000_S100000_S3300000_d0 = joinPair a b := rfl

/-- One simplifier pass over a literal list of host operations read at a buffer. -/
macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne',
      Cert.KernelIdeal.Hand.joinPair_eq]))

/-! A value written by an operation of an inlined function (the `where` of the edge weights, the relu between the
    layers) is carried to its buffer's type and back along an equation of types that holds by computation; at
    each such buffer the transport is the identity. -/

theorem toBuf_main_v50 (p1 p2 p3) (v : (⟨S100000x64, .f32⟩ : BufTy).Contents (Elt Ideal)) :
    (StableHlo.TRef.of (sig := sig) (T := ⟨S100000x64, .f32⟩) main_v50 p1 p2 p3).toBuf (Val := Elt Ideal) v = v := rfl
theorem ofBuf_main_v50 (p1 p2 p3) (v : (⟨S100000x64, .f32⟩ : BufTy).Contents (Elt Ideal)) :
    (StableHlo.TRef.of (sig := sig) (T := ⟨S100000x64, .f32⟩) main_v50 p1 p2 p3).ofBuf (Val := Elt Ideal) v = v := rfl
theorem toBuf_main_v49 (p1 p2 p3) (v : (⟨S100000x64, .f32⟩ : BufTy).Contents (Elt Ideal)) :
    (StableHlo.TRef.of (sig := sig) (T := ⟨S100000x64, .f32⟩) main_v49 p1 p2 p3).toBuf (Val := Elt Ideal) v = v := rfl
theorem ofBuf_main_v49 (p1 p2 p3) (v : (⟨S100000x64, .f32⟩ : BufTy).Contents (Elt Ideal)) :
    (StableHlo.TRef.of (sig := sig) (T := ⟨S100000x64, .f32⟩) main_v49 p1 p2 p3).ofBuf (Val := Elt Ideal) v = v := rfl
theorem toBuf_main_call1_v0 (p1 p2 p3) (v : (⟨S100000x64, .f32⟩ : BufTy).Contents (Elt Ideal)) :
    (StableHlo.TRef.of (sig := sig) (T := ⟨S100000x64, .f32⟩) main_call1_v0 p1 p2 p3).toBuf (Val := Elt Ideal) v = v := rfl
theorem ofBuf_main_call1_v0 (p1 p2 p3) (v : (⟨S100000x64, .f32⟩ : BufTy).Contents (Elt Ideal)) :
    (StableHlo.TRef.of (sig := sig) (T := ⟨S100000x64, .f32⟩) main_call1_v0 p1 p2 p3).ofBuf (Val := Elt Ideal) v = v := rfl
theorem toBuf_main_call1_cst (p1 p2 p3) (v : (⟨S_, .f32⟩ : BufTy).Contents (Elt Ideal)) :
    (StableHlo.TRef.of (sig := sig) (T := ⟨S_, .f32⟩) main_call1_cst p1 p2 p3).toBuf (Val := Elt Ideal) v = v := rfl
theorem ofBuf_main_call1_cst (p1 p2 p3) (v : (⟨S_, .f32⟩ : BufTy).Contents (Elt Ideal)) :
    (StableHlo.TRef.of (sig := sig) (T := ⟨S_, .f32⟩) main_call1_cst p1 p2 p3).ofBuf (Val := Elt Ideal) v = v := rfl
theorem toBuf_main_cst_2 (p1 p2 p3) (v : (⟨S_, .f32⟩ : BufTy).Contents (Elt Ideal)) :
    (StableHlo.TRef.of (sig := sig) (T := ⟨S_, .f32⟩) main_cst_2 p1 p2 p3).toBuf (Val := Elt Ideal) v = v := rfl
theorem ofBuf_main_cst_2 (p1 p2 p3) (v : (⟨S_, .f32⟩ : BufTy).Contents (Elt Ideal)) :
    (StableHlo.TRef.of (sig := sig) (T := ⟨S_, .f32⟩) main_cst_2 p1 p2 p3).ofBuf (Val := Elt Ideal) v = v := rfl
theorem toBuf_main_call0_v0 (p1 p2 p3) (v : (⟨S_, .f32⟩ : BufTy).Contents (Elt Ideal)) :
    (StableHlo.TRef.of (sig := sig) (T := ⟨S_, .f32⟩) main_call0_v0 p1 p2 p3).toBuf (Val := Elt Ideal) v = v := rfl
theorem ofBuf_main_call0_v0 (p1 p2 p3) (v : (⟨S_, .f32⟩ : BufTy).Contents (Elt Ideal)) :
    (StableHlo.TRef.of (sig := sig) (T := ⟨S_, .f32⟩) main_call0_v0 p1 p2 p3).ofBuf (Val := Elt Ideal) v = v := rfl
theorem toBuf_main_call0_v1 (p1 p2 p3) (v : (⟨S100000, .f32⟩ : BufTy).Contents (Elt Ideal)) :
    (StableHlo.TRef.of (sig := sig) (T := ⟨S100000, .f32⟩) main_call0_v1 p1 p2 p3).toBuf (Val := Elt Ideal) v = v := rfl
theorem ofBuf_main_call0_v1 (p1 p2 p3) (v : (⟨S100000, .f32⟩ : BufTy).Contents (Elt Ideal)) :
    (StableHlo.TRef.of (sig := sig) (T := ⟨S100000, .f32⟩) main_call0_v1 p1 p2 p3).ofBuf (Val := Elt Ideal) v = v := rfl
theorem toBuf_main_v12 (p1 p2 p3) (v : (⟨S100000, .i1⟩ : BufTy).Contents (Elt Ideal)) :
    (StableHlo.TRef.of (sig := sig) (T := ⟨S100000, .i1⟩) main_v12 p1 p2 p3).toBuf (Val := Elt Ideal) v = v := rfl
theorem ofBuf_main_v12 (p1 p2 p3) (v : (⟨S100000, .i1⟩ : BufTy).Contents (Elt Ideal)) :
    (StableHlo.TRef.of (sig := sig) (T := ⟨S100000, .i1⟩) main_v12 p1 p2 p3).ofBuf (Val := Elt Ideal) v = v := rfl
theorem toBuf_main_v13 (p1 p2 p3) (v : (⟨S100000, .f32⟩ : BufTy).Contents (Elt Ideal)) :
    (StableHlo.TRef.of (sig := sig) (T := ⟨S100000, .f32⟩) main_v13 p1 p2 p3).toBuf (Val := Elt Ideal) v = v := rfl
theorem ofBuf_main_v13 (p1 p2 p3) (v : (⟨S100000, .f32⟩ : BufTy).Contents (Elt Ideal)) :
    (StableHlo.TRef.of (sig := sig) (T := ⟨S100000, .f32⟩) main_v13 p1 p2 p3).ofBuf (Val := Elt Ideal) v = v := rfl
theorem toBuf_main_v14 (p1 p2 p3) (v : (⟨S100000, .f32⟩ : BufTy).Contents (Elt Ideal)) :
    (StableHlo.TRef.of (sig := sig) (T := ⟨S100000, .f32⟩) main_v14 p1 p2 p3).toBuf (Val := Elt Ideal) v = v := rfl
theorem ofBuf_main_v14 (p1 p2 p3) (v : (⟨S100000, .f32⟩ : BufTy).Contents (Elt Ideal)) :
    (StableHlo.TRef.of (sig := sig) (T := ⟨S100000, .f32⟩) main_v14 p1 p2 p3).ofBuf (Val := Elt Ideal) v = v := rfl

/-- Removes the transports of the inlined functions' values. -/
macro "host_casts" : tactic =>
  `(tactic| (simp only [Cert.KernelIdeal.Hand.toBuf_main_v50, Cert.KernelIdeal.Hand.ofBuf_main_v50, Cert.KernelIdeal.Hand.toBuf_main_v49, Cert.KernelIdeal.Hand.ofBuf_main_v49, Cert.KernelIdeal.Hand.toBuf_main_call1_v0, Cert.KernelIdeal.Hand.ofBuf_main_call1_v0, Cert.KernelIdeal.Hand.toBuf_main_call1_cst, Cert.KernelIdeal.Hand.ofBuf_main_call1_cst, Cert.KernelIdeal.Hand.toBuf_main_cst_2, Cert.KernelIdeal.Hand.ofBuf_main_cst_2, Cert.KernelIdeal.Hand.toBuf_main_call0_v0, Cert.KernelIdeal.Hand.ofBuf_main_call0_v0, Cert.KernelIdeal.Hand.toBuf_main_call0_v1, Cert.KernelIdeal.Hand.ofBuf_main_call0_v1, Cert.KernelIdeal.Hand.toBuf_main_v12, Cert.KernelIdeal.Hand.ofBuf_main_v12, Cert.KernelIdeal.Hand.toBuf_main_v13, Cert.KernelIdeal.Hand.ofBuf_main_v13, Cert.KernelIdeal.Hand.toBuf_main_v14, Cert.KernelIdeal.Hand.ofBuf_main_v14]))

end Cert.KernelIdeal.Hand

end
-- ==== Proof.KEntry.lean ====
/-
  The buffer contents at the perceptron kernel's entry, after the host operations that build the extended edge
  list (sources, targets), the edge weights and the two biases as one-row matrices: each is the specification's
  term of the launch contents; the arguments are untouched.
-/
import proofs.«175818_j73186242724453_1_alg».proof.Proof.Gen.KernelIdeal.Frame
import proofs.«175818_j73186242724453_1_alg».proof.Proof.Spec
import proofs.«175818_j73186242724453_1_alg».proof.Proof.HostRead
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

set_option maxHeartbeats 4000000 in
/-- The extended edge list's sources. -/
theorem entry_src : W3 m ρ c (Proc.devRef .tc main_v3) = Cert.Gcn.srcIdx (m ((c : Thread nD τ).loc main_arg1)) := by
  dsimp only [W3, W2, W1, hostOps0, hostOps0_1, hostOps0_2]
  host_results <;> rfl

set_option maxHeartbeats 4000000 in
/-- The extended edge list's targets. -/
theorem entry_dst : W3 m ρ c (Proc.devRef .tc main_v6) = Cert.Gcn.dstIdx (m ((c : Thread nD τ).loc main_arg1)) := by
  dsimp only [W3, W2, W1, hostOps0, hostOps0_1, hostOps0_2]
  host_results <;> rfl

/-! ### The edge weights

The weights are built in three stretches: the degrees and their comparison with 0 and inverse square roots; the
`where` that picks between them (an inlined function); the two gathers at the sources and the targets and the
product. Each stretch is read from ANY contents before it, then the three are chained. -/

open Cert.ReferenceIdeal in
/-- The edge weights from the per-node factors and the two index lists. -/
def edgeWeights (dis : FVec Ideal Cert.ReferenceIdeal.S100000 .f32) (s d : IVec Cert.ReferenceIdeal.S3300000 32) : FVec Ideal Cert.ReferenceIdeal.S3300000x1 .f32 :=
  broadcastInDim S3300000x1 ![0] Cert.ReferenceIdeal.Gen.bcast_S3300000_S3300000x1_0 (mulf (Host.gather gather_S100000_S3300000x1_S3300000_n_0_n_n_0_1_1 dis (broadcastInDim S3300000x1 ![0] Cert.ReferenceIdeal.Gen.bcast_S3300000_S3300000x1_0 (Cert.Gcn.wrap s))) (Host.gather gather_S100000_S3300000x1_S3300000_n_0_n_n_0_1_1 dis (broadcastInDim S3300000x1 ![0] Cert.ReferenceIdeal.Gen.bcast_S3300000_S3300000x1_0 (Cert.Gcn.wrap d))))

theorem nrm_eq (e : IVec Cert.ReferenceIdeal.S2x3200000 32) :
    Cert.Gcn.nrm e = edgeWeights (Cert.Gcn.dis e) (Cert.Gcn.srcIdx e) (Cert.Gcn.dstIdx e) := rfl

set_option maxHeartbeats 4000000 in
/-- Before the `where`: the comparison of the degrees with 0. -/
theorem pre_positive : W1 m ρ c (Proc.devRef .tc main_v12)
    = cmpf (F := Ideal) .ogt (Cert.Gcn.deg (m ((c : Thread nD τ).loc main_arg1))) (broadcastInDim Cert.ReferenceIdeal.S100000 ![] Cert.ReferenceIdeal.Gen.bcast_S_S100000 (constant Cert.ReferenceIdeal.S_ .f32 0x00000000#32)) := by
  dsimp only [W1, hostOps0]
  host_results <;> rfl

set_option maxHeartbeats 4000000 in
/-- Before the `where`: the degrees' inverse square roots. -/
theorem pre_rsqrt : W1 m ρ c (Proc.devRef .tc main_v13) = Host.rsqrt (Cert.Gcn.deg (m ((c : Thread nD τ).loc main_arg1))) := by
  dsimp only [W1, hostOps0]
  host_results <;> rfl

set_option maxHeartbeats 4000000 in
/-- Before the `where`: the constant 0 it falls back to. -/
theorem pre_zero : W1 m ρ c (Proc.devRef .tc main_cst_2) = constant (F := Ideal) Cert.ReferenceIdeal.S_ .f32 0x00000000#32 := by
  dsimp only [W1, hostOps0]
  host_results <;> rfl

set_option maxHeartbeats 4000000 in
theorem pre_src : W1 m ρ c (Proc.devRef .tc main_v3) = Cert.Gcn.srcIdx (m ((c : Thread nD τ).loc main_arg1)) := by
  dsimp only [W1, hostOps0]
  host_results <;> rfl

set_option maxHeartbeats 4000000 in
theorem pre_dst : W1 m ρ c (Proc.devRef .tc main_v6) = Cert.Gcn.dstIdx (m ((c : Thread nD τ).loc main_arg1)) := by
  dsimp only [W1, hostOps0]
  host_results <;> rfl

set_option maxHeartbeats 4000000 in
/-- The `where`, from any contents: the select of its three operands. -/
theorem where_stage (Wv : Valuation τ sig (Elt Ideal)) :
    StableHlo.after (hostOps0_1 (F := Ideal)) Wv (Proc.devRef .tc main_v14)
      = select (s := S100000) (Wv (Proc.devRef .tc main_v12)) (Wv (Proc.devRef .tc main_v13)) (broadcastInDim S100000 ![] bcast_S_S100000 (id (Wv (Proc.devRef .tc main_cst_2)))) := by
  dsimp only [hostOps0_1]
  host_results
  rfl

set_option maxHeartbeats 4000000 in
theorem where_keeps_src (Wv : Valuation τ sig (Elt Ideal)) :
    StableHlo.after (hostOps0_1 (F := Ideal)) Wv (Proc.devRef .tc main_v3) = Wv (Proc.devRef .tc main_v3) := by
  dsimp only [hostOps0_1]
  host_results

set_option maxHeartbeats 4000000 in
theorem where_keeps_dst (Wv : Valuation τ sig (Elt Ideal)) :
    StableHlo.after (hostOps0_1 (F := Ideal)) Wv (Proc.devRef .tc main_v6) = Wv (Proc.devRef .tc main_v6) := by
  dsimp only [hostOps0_1]
  host_results

/-- After the `where`: the per-node factors deg^(-1/2), 0 where the degree is not positive. -/
theorem dis_value : W2 m ρ c (Proc.devRef .tc main_v14) = Cert.Gcn.dis (m ((c : Thread nD τ).loc main_arg1)) := by
  show StableHlo.after (hostOps0_1 (F := Ideal)) (W1 m ρ c) (Proc.devRef .tc main_v14) = _
  rw [where_stage, pre_positive, pre_rsqrt, pre_zero]
  rfl

theorem src_after_where : W2 m ρ c (Proc.devRef .tc main_v3) = Cert.Gcn.srcIdx (m ((c : Thread nD τ).loc main_arg1)) := by
  show StableHlo.after (hostOps0_1 (F := Ideal)) (W1 m ρ c) (Proc.devRef .tc main_v3) = _
  rw [where_keeps_src, pre_src]

theorem dst_after_where : W2 m ρ c (Proc.devRef .tc main_v6) = Cert.Gcn.dstIdx (m ((c : Thread nD τ).loc main_arg1)) := by
  show StableHlo.after (hostOps0_1 (F := Ideal)) (W1 m ρ c) (Proc.devRef .tc main_v6) = _
  rw [where_keeps_dst, pre_dst]

set_option maxHeartbeats 4000000 in
/-- The last stretch, from any contents: the gathers at the two index lists and the product. -/
theorem weights_stage (Wv : Valuation τ sig (Elt Ideal)) :
    StableHlo.after (hostOps0_2 (F := Ideal)) Wv (Proc.devRef .tc main_v30)
      = edgeWeights (Wv (Proc.devRef .tc main_v14)) (Wv (Proc.devRef .tc main_v3)) (Wv (Proc.devRef .tc main_v6)) := by
  dsimp only [hostOps0_2]
  host_results
  rfl

/-- The edge weights. -/
theorem entry_nrm : W3 m ρ c (Proc.devRef .tc main_v30) = Cert.Gcn.nrm (m ((c : Thread nD τ).loc main_arg1)) := by
  show StableHlo.after (hostOps0_2 (F := Ideal)) (W2 m ρ c) (Proc.devRef .tc main_v30) = _
  rw [weights_stage, dis_value, src_after_where, dst_after_where, nrm_eq]

set_option maxHeartbeats 4000000 in
/-- The first bias as a one-row matrix. -/
theorem entry_b1 : W3 m ρ c (Proc.devRef .tc main_v31) = shapeCast S1x128 (m ((c : Thread nD τ).loc main_arg3)) shapeCasts_S128_S1x128 := by
  dsimp only [W3, W2, W1, hostOps0, hostOps0_1, hostOps0_2]
  host_results <;> rfl

set_option maxHeartbeats 4000000 in
/-- The second bias as a one-row matrix. -/
theorem entry_b2 : W3 m ρ c (Proc.devRef .tc main_v32) = shapeCast S1x256 (m ((c : Thread nD τ).loc main_arg5)) shapeCasts_S256_S1x256 := by
  dsimp only [W3, W2, W1, hostOps0, hostOps0_1, hostOps0_2]
  host_results <;> rfl

set_option maxHeartbeats 4000000 in
theorem entry_arg0 : W3 m ρ c (Proc.devRef .tc main_arg0) = (m ((c : Thread nD τ).loc main_arg0)) := by
  dsimp only [W3, W2, W1, hostOps0, hostOps0_1, hostOps0_2]
  host_results <;> rfl

set_option maxHeartbeats 4000000 in
theorem entry_arg2 : W3 m ρ c (Proc.devRef .tc main_arg2) = (m ((c : Thread nD τ).loc main_arg2)) := by
  dsimp only [W3, W2, W1, hostOps0, hostOps0_1, hostOps0_2]
  host_results <;> rfl

set_option maxHeartbeats 4000000 in
theorem entry_arg4 : W3 m ρ c (Proc.devRef .tc main_arg4) = (m ((c : Thread nD τ).loc main_arg4)) := by
  dsimp only [W3, W2, W1, hostOps0, hostOps0_1, hostOps0_2]
  host_results <;> rfl

set_option maxHeartbeats 4000000 in
theorem entry_arg6 : W3 m ρ c (Proc.devRef .tc main_arg6) = (m ((c : Thread nD τ).loc main_arg6)) := by
  dsimp only [W3, W2, W1, hostOps0, hostOps0_1, hostOps0_2]
  host_results <;> rfl

set_option maxHeartbeats 4000000 in
theorem entry_arg7 : W3 m ρ c (Proc.devRef .tc main_arg7) = (m ((c : Thread nD τ).loc main_arg7)) := by
  dsimp only [W3, W2, W1, hostOps0, hostOps0_1, hostOps0_2]
  host_results <;> rfl

set_option maxHeartbeats 4000000 in
theorem entry_arg8 : W3 m ρ c (Proc.devRef .tc main_arg8) = (m ((c : Thread nD τ).loc main_arg8)) := by
  dsimp only [W3, W2, W1, hostOps0, hostOps0_1, hostOps0_2]
  host_results <;> rfl

set_option maxHeartbeats 4000000 in
theorem entry_arg9 : W3 m ρ c (Proc.devRef .tc main_arg9) = (m ((c : Thread nD τ).loc main_arg9)) := by
  dsimp only [W3, W2, W1, hostOps0, hostOps0_1, hostOps0_2]
  host_results <;> rfl

end Cert.KernelIdeal.Hand

end
-- ==== Proof.KLayers.lean ====
/-
  The two stretches of host operations after the linear kernels: each is the specification's graph layer of the
  buffers it reads (gather the rows at the sources, scale by the edge weights, add up at the targets, add the bias),
  followed by relu after the first and by the logistic function after the second; the edge lists, the weights and
  the later arguments pass through the first stretch untouched.
-/
import proofs.«175818_j73186242724453_1_alg».proof.Proof.Gen.KernelIdeal.Frame
import proofs.«175818_j73186242724453_1_alg».proof.Proof.Spec
import proofs.«175818_j73186242724453_1_alg».proof.Proof.HostRead
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

set_option maxHeartbeats 4000000 in
/-- The relu (an inlined function), from any contents: the maximum with the zero table. -/
theorem relu_stage (Wv : Valuation τ sig (Elt Ideal)) :
    StableHlo.after (hostOps2_1 (F := Ideal)) Wv (Proc.devRef .tc main_v50)
      = maximumf (F := Ideal) (s := S100000x64) (φ := .f32) (Wv (Proc.devRef .tc main_v49)) (broadcastInDim S100000x64 ![] bcast_S_S100000x64 (constant S_ .f32 0x00000000#32)) := by
  dsimp only [hostOps2_1]
  host_results
  rfl

set_option maxHeartbeats 16000000 in
/-- The first graph layer. -/
theorem layer1_sum : W6 m ρ c (Proc.devRef .tc main_v49)
    = Cert.Gcn.layer (W5 m ρ c (Proc.devRef .tc main_v3)) (W5 m ρ c (Proc.devRef .tc main_v6)) (W5 m ρ c (Proc.devRef .tc main_v30)) (W5 m ρ c (Proc.devRef .tc main_arg7)) (W5 m ρ c (Proc.devRef .tc main_v34)) := by
  dsimp only [W6, hostOps2]
  host_results <;> rfl

/-- The first graph layer, then relu. -/
theorem layer1_out : W7 m ρ c (Proc.devRef .tc main_v50)
    = Cert.Gcn.relu64 (Cert.Gcn.layer (W5 m ρ c (Proc.devRef .tc main_v3)) (W5 m ρ c (Proc.devRef .tc main_v6)) (W5 m ρ c (Proc.devRef .tc main_v30)) (W5 m ρ c (Proc.devRef .tc main_arg7)) (W5 m ρ c (Proc.devRef .tc main_v34))) := by
  show StableHlo.after (hostOps2_1 (F := Ideal)) (W6 m ρ c) (Proc.devRef .tc main_v50) = _
  rw [relu_stage, layer1_sum]
  rfl

set_option maxHeartbeats 4000000 in
theorem layer1_keeps_main_v3 : W7 m ρ c (Proc.devRef .tc main_v3) = W5 m ρ c (Proc.devRef .tc main_v3) := by
  dsimp only [W7, W6, hostOps2, hostOps2_1]
  host_results <;> rfl

set_option maxHeartbeats 4000000 in
theorem layer1_keeps_main_v6 : W7 m ρ c (Proc.devRef .tc main_v6) = W5 m ρ c (Proc.devRef .tc main_v6) := by
  dsimp only [W7, W6, hostOps2, hostOps2_1]
  host_results <;> rfl

set_option maxHeartbeats 4000000 in
theorem layer1_keeps_main_v30 : W7 m ρ c (Proc.devRef .tc main_v30) = W5 m ρ c (Proc.devRef .tc main_v30) := by
  dsimp only [W7, W6, hostOps2, hostOps2_1]
  host_results <;> rfl

set_option maxHeartbeats 4000000 in
theorem layer1_keeps_main_arg8 : W7 m ρ c (Proc.devRef .tc main_arg8) = W5 m ρ c (Proc.devRef .tc main_arg8) := by
  dsimp only [W7, W6, hostOps2, hostOps2_1]
  host_results <;> rfl

set_option maxHeartbeats 4000000 in
theorem layer1_keeps_main_arg9 : W7 m ρ c (Proc.devRef .tc main_arg9) = W5 m ρ c (Proc.devRef .tc main_arg9) := by
  dsimp only [W7, W6, hostOps2, hostOps2_1]
  host_results <;> rfl

set_option maxHeartbeats 16000000 in
/-- The second graph layer, then the logistic function. -/
theorem layer2_out : W9 m ρ c (Proc.devRef .tc main_v72)
    = Cert.Gcn.sigm (Cert.Gcn.layer (W8 m ρ c (Proc.devRef .tc main_v3)) (W8 m ρ c (Proc.devRef .tc main_v6)) (W8 m ρ c (Proc.devRef .tc main_v30)) (W8 m ρ c (Proc.devRef .tc main_arg9)) (W8 m ρ c (Proc.devRef .tc main_v51))) := by
  dsimp only [W9, hostOps3]
  host_results <;> rfl

end Cert.KernelIdeal.Hand

end
-- ==== Proof.KValue.lean ====
/-
  The kernel program's result buffer, as the network of Spec.lean applied to the launch contents of the arguments.

  The generated frame folds the buffer contents through the program's segments: W3 at the perceptron kernel's entry,
  W4 at its exit, W5 after the first linear kernel, W7 after the first graph layer's host operations and the relu,
  W8 after the second linear kernel, W9 at the return. Read forward: the edge lists and the weights are written once
  and never again (a kernel rewrites only its output array); each kernel's output array is the specification's map
  of its input arrays (Region0/1/2.lean); each stretch of host operations is the specification's graph layer
  (KLayers.lean) of contents that go back to the entry's (KEntry.lean).
-/
import proofs.«175818_j73186242724453_1_alg».proof.Proof.Gen.KernelIdeal.Frame
import proofs.«175818_j73186242724453_1_alg».proof.Proof.Spec
import proofs.«175818_j73186242724453_1_alg».proof.Proof.Region0
import proofs.«175818_j73186242724453_1_alg».proof.Proof.Region1
import proofs.«175818_j73186242724453_1_alg».proof.Proof.Region2
import proofs.«175818_j73186242724453_1_alg».proof.Proof.LibLreluRows
import proofs.«175818_j73186242724453_1_alg».proof.Proof.KEntry
import proofs.«175818_j73186242724453_1_alg».proof.Proof.KLayers
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The perceptron kernel -/

/-- The perceptron kernel's output array. -/
theorem mlp_out : W4 m ρ c (Proc.devRef .tc main_v33)
    = Cert.Gcn.mlp (m ((c : Thread nD τ).loc main_arg0)) (m ((c : Thread nD τ).loc main_arg2)) (m ((c : Thread nD τ).loc main_arg3)) (m ((c : Thread nD τ).loc main_arg4)) (m ((c : Thread nD τ).loc main_arg5)) := by
  refine (W4_arr m ρ c 5).trans ?_
  refine (region0_value (V3 m ρ) c (m ((c : Thread nD τ).loc main_arg3)) (m ((c : Thread nD τ).loc main_arg5)) ?_ ?_).trans ?_
  · intro k
    show W3 m ρ c (Proc.devRef .tc main_v31) (ix2 (0 : Fin 1) k) = _
    rw [entry_b1]
    exact Cert.LibLreluRows.rowCast_apply shapeCasts_S128_S1x128 _ k
  · intro q
    show W3 m ρ c (Proc.devRef .tc main_v32) (ix2 (0 : Fin 1) q) = _
    rw [entry_b2]
    exact Cert.LibLreluRows.rowCast_apply shapeCasts_S256_S1x256 _ q
  · show Cert.Gcn.mlp (W3 m ρ c (Proc.devRef .tc main_arg0)) (W3 m ρ c (Proc.devRef .tc main_arg2)) _ (W3 m ρ c (Proc.devRef .tc main_arg4)) _ = _
    rw [entry_arg0, entry_arg2, entry_arg4]

theorem mlp_keeps_main_v3 : W4 m ρ c (Proc.devRef .tc main_v3) = W3 m ρ c (Proc.devRef .tc main_v3) := W4_of_ne m ρ c main_v3 (by decide)
theorem mlp_keeps_main_v6 : W4 m ρ c (Proc.devRef .tc main_v6) = W3 m ρ c (Proc.devRef .tc main_v6) := W4_of_ne m ρ c main_v6 (by decide)
theorem mlp_keeps_main_v30 : W4 m ρ c (Proc.devRef .tc main_v30) = W3 m ρ c (Proc.devRef .tc main_v30) := W4_of_ne m ρ c main_v30 (by decide)
theorem mlp_keeps_main_arg6 : W4 m ρ c (Proc.devRef .tc main_arg6) = W3 m ρ c (Proc.devRef .tc main_arg6) := W4_of_ne m ρ c main_arg6 (by decide)
theorem mlp_keeps_main_arg7 : W4 m ρ c (Proc.devRef .tc main_arg7) = W3 m ρ c (Proc.devRef .tc main_arg7) := W4_of_ne m ρ c main_arg7 (by decide)
theorem mlp_keeps_main_arg8 : W4 m ρ c (Proc.devRef .tc main_arg8) = W3 m ρ c (Proc.devRef .tc main_arg8) := W4_of_ne m ρ c main_arg8 (by decide)
theorem mlp_keeps_main_arg9 : W4 m ρ c (Proc.devRef .tc main_arg9) = W3 m ρ c (Proc.devRef .tc main_arg9) := W4_of_ne m ρ c main_arg9 (by decide)

/-! ## The first linear kernel -/

/-- The first linear kernel's output array. -/
theorem lin1_out : W5 m ρ c (Proc.devRef .tc main_v34) = Cert.Gcn.lin1 (W4 m ρ c (Proc.devRef .tc main_v33)) (W4 m ρ c (Proc.devRef .tc main_arg6)) :=
  (W5_arr m ρ c 2).trans (region1_value (V4 m ρ) c)

theorem lin1_keeps_main_v3 : W5 m ρ c (Proc.devRef .tc main_v3) = W4 m ρ c (Proc.devRef .tc main_v3) := W5_of_ne m ρ c main_v3 (by decide)
theorem lin1_keeps_main_v6 : W5 m ρ c (Proc.devRef .tc main_v6) = W4 m ρ c (Proc.devRef .tc main_v6) := W5_of_ne m ρ c main_v6 (by decide)
theorem lin1_keeps_main_v30 : W5 m ρ c (Proc.devRef .tc main_v30) = W4 m ρ c (Proc.devRef .tc main_v30) := W5_of_ne m ρ c main_v30 (by decide)
theorem lin1_keeps_main_arg7 : W5 m ρ c (Proc.devRef .tc main_arg7) = W4 m ρ c (Proc.devRef .tc main_arg7) := W5_of_ne m ρ c main_arg7 (by decide)
theorem lin1_keeps_main_arg8 : W5 m ρ c (Proc.devRef .tc main_arg8) = W4 m ρ c (Proc.devRef .tc main_arg8) := W5_of_ne m ρ c main_arg8 (by decide)
theorem lin1_keeps_main_arg9 : W5 m ρ c (Proc.devRef .tc main_arg9) = W4 m ρ c (Proc.devRef .tc main_arg9) := W5_of_ne m ρ c main_arg9 (by decide)

/-! ## The second linear kernel -/

/-- The second linear kernel's output array. -/
theorem lin2_out : W8 m ρ c (Proc.devRef .tc main_v51) = Cert.Gcn.lin2 (W7 m ρ c (Proc.devRef .tc main_v50)) (W7 m ρ c (Proc.devRef .tc main_arg8)) :=
  (W8_arr m ρ c 2).trans (region2_value (V7 m ρ) c)

theorem lin2_keeps_main_v3 : W8 m ρ c (Proc.devRef .tc main_v3) = W7 m ρ c (Proc.devRef .tc main_v3) := W8_of_ne m ρ c main_v3 (by decide)
theorem lin2_keeps_main_v6 : W8 m ρ c (Proc.devRef .tc main_v6) = W7 m ρ c (Proc.devRef .tc main_v6) := W8_of_ne m ρ c main_v6 (by decide)
theorem lin2_keeps_main_v30 : W8 m ρ c (Proc.devRef .tc main_v30) = W7 m ρ c (Proc.devRef .tc main_v30) := W8_of_ne m ρ c main_v30 (by decide)
theorem lin2_keeps_main_arg9 : W8 m ρ c (Proc.devRef .tc main_arg9) = W7 m ρ c (Proc.devRef .tc main_arg9) := W8_of_ne m ρ c main_arg9 (by decide)

/-! ## The result -/

/-- The edge lists and weights at every later boundary are the entry's. -/
theorem src_at5 : W5 m ρ c (Proc.devRef .tc main_v3) = Cert.Gcn.srcIdx (m ((c : Thread nD τ).loc main_arg1)) := by
  rw [lin1_keeps_main_v3, mlp_keeps_main_v3, entry_src]
theorem dst_at5 : W5 m ρ c (Proc.devRef .tc main_v6) = Cert.Gcn.dstIdx (m ((c : Thread nD τ).loc main_arg1)) := by
  rw [lin1_keeps_main_v6, mlp_keeps_main_v6, entry_dst]
theorem nrm_at5 : W5 m ρ c (Proc.devRef .tc main_v30) = Cert.Gcn.nrm (m ((c : Thread nD τ).loc main_arg1)) := by
  rw [lin1_keeps_main_v30, mlp_keeps_main_v30, entry_nrm]
theorem arg7_at5 : W5 m ρ c (Proc.devRef .tc main_arg7) = (m ((c : Thread nD τ).loc main_arg7)) := by
  rw [lin1_keeps_main_arg7, mlp_keeps_main_arg7, entry_arg7]
theorem arg8_at5 : W5 m ρ c (Proc.devRef .tc main_arg8) = (m ((c : Thread nD τ).loc main_arg8)) := by
  rw [lin1_keeps_main_arg8, mlp_keeps_main_arg8, entry_arg8]
theorem arg9_at5 : W5 m ρ c (Proc.devRef .tc main_arg9) = (m ((c : Thread nD τ).loc main_arg9)) := by
  rw [lin1_keeps_main_arg9, mlp_keeps_main_arg9, entry_arg9]
theorem arg6_at4 : W4 m ρ c (Proc.devRef .tc main_arg6) = (m ((c : Thread nD τ).loc main_arg6)) := by
  rw [mlp_keeps_main_arg6, entry_arg6]

/-- The first graph layer's output, relu'd. -/
theorem hidden_value : W7 m ρ c (Proc.devRef .tc main_v50)
    = Cert.Gcn.relu64 (Cert.Gcn.layer (Cert.Gcn.srcIdx (m ((c : Thread nD τ).loc main_arg1))) (Cert.Gcn.dstIdx (m ((c : Thread nD τ).loc main_arg1))) (Cert.Gcn.nrm (m ((c : Thread nD τ).loc main_arg1))) (m ((c : Thread nD τ).loc main_arg7))
        (Cert.Gcn.lin1 (Cert.Gcn.mlp (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)))) := by
  rw [layer1_out, src_at5, dst_at5, nrm_at5, arg7_at5, lin1_out, mlp_out, arg6_at4]

/-- The result buffer at the return is the network applied to the arguments as launched. -/
theorem result_value : W9 m ρ c (Proc.devRef .tc main_v72)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [layer2_out, lin2_out, hidden_value,
    lin2_keeps_main_v3, lin2_keeps_main_v6, lin2_keeps_main_v30, lin2_keeps_main_arg9,
    layer1_keeps_main_v3, layer1_keeps_main_v6, layer1_keeps_main_v30, layer1_keeps_main_arg8, layer1_keeps_main_arg9,
    src_at5, dst_at5, nrm_at5, arg8_at5, arg9_at5]
  rfl

end Cert.KernelIdeal.Hand

end
-- ==== Proof.RefSide.lean ====
/-
  The reference program's result is the network of Spec.lean applied to its arguments: its run's term is that
  composition of host operations, written out.
-/
import proofs.«175818_j73186242724453_1_alg».proof.Proof.RefRun
import proofs.«175818_j73186242724453_1_alg».proof.Proof.Spec

set_option maxRecDepth 16384

noncomputable section

namespace Cert.ReferenceIdeal.Hand

open Cert.ReferenceIdeal Cert.ReferenceIdeal.Gen Cert.ReferenceIdeal.RefRun Idealize.ShloMosaic Idealize.ShloMosaic.TcCoe Idealize.SL.Sem

set_option maxHeartbeats 4000000 in
/-- The reference's result term is the network applied to the launch contents of its arguments. -/
theorem result_eq (m : (ℓ : Loc nD τ sig) → Buf (Elt Ideal) ℓ) (c : Dev nD) :
    res_main_v82 (F := Ideal) m c
      = Cert.Gcn.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold res_main_v82 Cert.Gcn.gcn Cert.Gcn.sigm Cert.Gcn.layer Cert.Gcn.lin2 Cert.Gcn.lin1 Cert.Gcn.relu64 Cert.Gcn.mlp Cert.Gcn.nrm Cert.Gcn.dis Cert.Gcn.deg Cert.Gcn.wrap Cert.Gcn.srcIdx Cert.Gcn.dstIdx
  rfl

end Cert.ReferenceIdeal.Hand

end
-- ==== Proof.lean ====
/-
  The certificate of the graph network kernel against its jnp reference, over the extended reals.

  Both programs compute sigmoid (layer₂ (relu (layer₁ (mlp x · W₆ᵀ)) · W₈ᵀ)) (Proof/Spec.lean). They share, operation
  for operation, the host code that extends the edge list by self-loops, counts degrees, forms the edge weights
  deg^(-1/2)[source] · deg^(-1/2)[target], and gathers, scales and sums rows per graph layer. They differ in the three
  dense maps: the kernel program computes the two-layer perceptron and the two linear maps in tiled kernels over 20
  blocks of 5000 rows, rounding operands to a shorter float format first; the reference in whole-array products. On
  exact values the rounding is the identity and a row of a product depends on that row of the left operand only, so
  each kernel's output array is the reference's product (Proof/Region0.lean, Region1.lean, Region2.lean), and the
  rest of the two programs is the same term (Proof/KValue.lean, Proof/RefSide.lean). No law of arithmetic beyond
  that is used, so the precondition (finite inputs) is not needed for the value claim.

  The three frame claims are the generated frames (the reference's: its run with the result dropped); the ideal pass
  rewrote nothing, so the preservation claim is trivial.
-/
import proofs.«175818_j73186242724453_1_alg».proof.Defs
import proofs.«175818_j73186242724453_1_alg».proof.Proof.Gen.Kernel
import proofs.«175818_j73186242724453_1_alg».proof.Proof.Gen.Kernel.Frame
import proofs.«175818_j73186242724453_1_alg».proof.Proof.Gen.KernelIdeal
import proofs.«175818_j73186242724453_1_alg».proof.Proof.Gen.KernelIdeal.Frame
import proofs.«175818_j73186242724453_1_alg».proof.Proof.Gen.ReferenceIdeal
import proofs.«175818_j73186242724453_1_alg».proof.Proof.Gen.Pre_finite_inputs
import proofs.«175818_j73186242724453_1_alg».proof.Proof.KRun
import proofs.«175818_j73186242724453_1_alg».proof.Proof.KValue
import proofs.«175818_j73186242724453_1_alg».proof.Proof.RefRun
import proofs.«175818_j73186242724453_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the network of Spec.lean applied to the (agreeing) arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.result_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨a0, a1, a2, a3, a4, a5, a6, a7, a8, a9⟩ := hagree c
    rw [Cert.ReferenceIdeal.Hand.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
